-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v16)) (v6 : (c : Dev Cert.KernelIdeal.nD) → Buf (Elt Ideal) ((c.tc : Thread Cert.KernelIdeal.nD Cert.KernelIdeal.τ).loc Cert.KernelIdeal.main_v18)) (v7 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v16) = v5 c
          ∧ r.2.mem ((c.tc : Thread Cert.KernelIdeal.nD Cert.KernelIdeal.τ).loc Cert.KernelIdeal.main_v18) = v6 c
          ∧ r.2.mem ((c.tc : Thread Cert.KernelIdeal.nD Cert.KernelIdeal.τ).loc Cert.KernelIdeal.main_v20) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v13) = v5 c
          ∧ r.2.mem ((c.tc : Thread Cert.ReferenceIdeal.nD Cert.ReferenceIdeal.τ).loc Cert.ReferenceIdeal.main_v15) = v6 c
          ∧ r.2.mem ((c.tc : Thread Cert.ReferenceIdeal.nD Cert.ReferenceIdeal.τ).loc Cert.ReferenceIdeal.main_v17) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8x64x4096 : Shape := ⟨3, ![8, 64, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S8x64x4096 : S_.BroadcastsInDim S8x64x4096 (![] : Fin 0 → Fin S8x64x4096.rank)
  reducesTo_S8x64x4096_S_d0_1_2 : S8x64x4096.ReducesTo [0, 1, 2] S_

variable [Facts]

def fn {F : FTy → Type} [FloatOps F] (main_arg0 : FVec F S4x2048x4096 .f32) (main_arg1 : FVec F S8x64x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S8x64x4096 .f32 := Host.absf main_arg1
  let main_cst_0 : FVec F S_ .f32 := constant S_ .f32 0x7F800000#32
  let main_v5 : FVec F S8x64x4096 .f32 := broadcastInDim S8x64x4096 ![] bcast_S_S8x64x4096 main_cst_0
  let main_v6 : IVec S8x64x4096 1 := cmpf .olt main_v4 main_v5
  let main_c_1 : IVec S_ 1 := constantI S_ 1 1#1
  let main_v7 : IVec S_ 1 := (fun x v => Host.reduce IntOp.andi x v reducesTo_S8x64x4096_S_d0_1_2 h_S_) main_v6 main_c_1
  let main_v8 : IVec S_ 1 := andi main_v3 main_v7
  main_v8
-- ==== Kernel.lean ====
abbrev S4x2048x4096 : Shape := ⟨3, ![4, 2048, 4096]⟩
abbrev S8x64x4096 : Shape := ⟨3, ![8, 64, 4096]⟩
abbrev S8192x4096 : Shape := ⟨2, ![8192, 4096]⟩
abbrev S512x4096 : Shape := ⟨2, ![512, 4096]⟩
abbrev S8x8192x64 : Shape := ⟨3, ![8, 8192, 64]⟩
abbrev S8x512x64 : Shape := ⟨3, ![8, 512, 64]⟩
abbrev S512x512 : Shape := ⟨2, ![512, 512]⟩
abbrev S512x64 : Shape := ⟨2, ![512, 64]⟩
abbrev S1x512x64 : Shape := ⟨3, ![1, 512, 64]⟩
abbrev S8x4x2048x64 : Shape := ⟨4, ![8, 4, 2048, 64]⟩
abbrev S1x4x2048x64 : Shape := ⟨4, ![1, 4, 2048, 64]⟩
abbrev S4x2048x64 : Shape := ⟨3, ![4, 2048, 64]⟩

abbrev nBuf : Space → Nat
  | .hbm => 23
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S8x64x4096, .f32⟩
  | .hbm, ⟨2, _⟩ => ⟨S8192x4096, .f32⟩
  | .hbm, ⟨3, _⟩ => ⟨S512x4096, .f32⟩
  | .hbm, ⟨4, _⟩ => ⟨S512x4096, .bf16⟩
  | .hbm, ⟨5, _⟩ => ⟨S8x8192x64, .f32⟩
  | .hbm, ⟨6, _⟩ => ⟨S8x4x2048x64, .f32⟩
  | .hbm, ⟨7, _⟩ => ⟨S1x4x2048x64, .f32⟩
  | .hbm, ⟨8, _⟩ => ⟨S4x2048x64, .f32⟩
  | .hbm, ⟨9, _⟩ => ⟨S1x4x2048x64, .f32⟩
  | .hbm, ⟨10, _⟩ => ⟨S4x2048x64, .f32⟩
  | .hbm, ⟨11, _⟩ => ⟨S1x4x2048x64, .f32⟩
  | .hbm, ⟨12, _⟩ => ⟨S4x2048x64, .f32⟩
  | .hbm, ⟨13, _⟩ => ⟨S1x4x2048x64, .f32⟩
  | .hbm, ⟨14, _⟩ => ⟨S4x2048x64, .f32⟩
  | .hbm, ⟨15, _⟩ => ⟨S1x4x2048x64, .f32⟩
  | .hbm, ⟨16, _⟩ => ⟨S4x2048x64, .f32⟩
  | .hbm, ⟨17, _⟩ => ⟨S1x4x2048x64, .f32⟩
  | .hbm, ⟨18, _⟩ => ⟨S4x2048x64, .f32⟩
  | .hbm, ⟨19, _⟩ => ⟨S1x4x2048x64, .f32⟩
  | .hbm, ⟨20, _⟩ => ⟨S4x2048x64, .f32⟩
  | .hbm, ⟨21, _⟩ => ⟨S1x4x2048x64, .f32⟩
  | .hbm, ⟨22, _⟩ => ⟨S4x2048x64, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S8x512x64, .f32⟩
  | .local _ .vmem, ⟨4, _⟩ => ⟨S8x512x64, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048x4096_S8192x4096 : S4x2048x4096.ShapeCasts S8192x4096
  shapeCasts_S8x64x4096_S512x4096 : S8x64x4096.ShapeCasts S512x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  slices_S512x512_o0_0_S512x64 : S512x512.Slices ![0, 0] S512x64
  inb_S8x512x64_S1x512x64_0_0_0 : ∀ a, (![0, 0, 0] : Fin 3 → Nat) a + S1x512x64.size a ≤ S8x512x64.size a
  h_S1x512x64 : 0 < S1x512x64.numel
  shapeCasts_S1x512x64_S512x64 : S1x512x64.ShapeCasts S512x64
  shapeCasts_S512x64_S1x512x64 : S512x64.ShapeCasts S1x512x64
  slices_S512x512_o0_64_S512x64 : S512x512.Slices ![0, 64] S512x64
  inb_S8x512x64_S1x512x64_1_0_0 : ∀ a, (![1, 0, 0] : Fin 3 → Nat) a + S1x512x64.size a ≤ S8x512x64.size a
  slices_S512x512_o0_128_S512x64 : S512x512.Slices ![0, 128] S512x64
  inb_S8x512x64_S1x512x64_2_0_0 : ∀ a, (![2, 0, 0] : Fin 3 → Nat) a + S1x512x64.size a ≤ S8x512x64.size a
  slices_S512x512_o0_192_S512x64 : S512x512.Slices ![0, 192] S512x64
  inb_S8x512x64_S1x512x64_3_0_0 : ∀ a, (![3, 0, 0] : Fin 3 → Nat) a + S1x512x64.size a ≤ S8x512x64.size a
  slices_S512x512_o0_256_S512x64 : S512x512.Slices ![0, 256] S512x64
  inb_S8x512x64_S1x512x64_4_0_0 : ∀ a, (![4, 0, 0] : Fin 3 → Nat) a + S1x512x64.size a ≤ S8x512x64.size a
  slices_S512x512_o0_320_S512x64 : S512x512.Slices ![0, 320] S512x64
  inb_S8x512x64_S1x512x64_5_0_0 : ∀ a, (![5, 0, 0] : Fin 3 → Nat) a + S1x512x64.size a ≤ S8x512x64.size a
  slices_S512x512_o0_384_S512x64 : S512x512.Slices ![0, 384] S512x64
  inb_S8x512x64_S1x512x64_6_0_0 : ∀ a, (![6, 0, 0] : Fin 3 → Nat) a + S1x512x64.size a ≤ S8x512x64.size a
  slices_S512x512_o0_448_S512x64 : S512x512.Slices ![0, 448] S512x64
  inb_S8x512x64_S1x512x64_7_0_0 : ∀ a, (![7, 0, 0] : Fin 3 → Nat) a + S1x512x64.size a ≤ S8x512x64.size a
  shapeCasts_S8x8192x64_S8x4x2048x64 : S8x8192x64.ShapeCasts S8x4x2048x64
  slices_S8x4x2048x64_S1x4x2048x64_0_0_0_0 : S8x4x2048x64.Slices ![0, 0, 0, 0] S1x4x2048x64
  shapeCasts_S1x4x2048x64_S4x2048x64 : S1x4x2048x64.ShapeCasts S4x2048x64
  slices_S8x4x2048x64_S1x4x2048x64_1_0_0_0 : S8x4x2048x64.Slices ![1, 0, 0, 0] S1x4x2048x64
  slices_S8x4x2048x64_S1x4x2048x64_2_0_0_0 : S8x4x2048x64.Slices ![2, 0, 0, 0] S1x4x2048x64
  slices_S8x4x2048x64_S1x4x2048x64_3_0_0_0 : S8x4x2048x64.Slices ![3, 0, 0, 0] S1x4x2048x64
  slices_S8x4x2048x64_S1x4x2048x64_4_0_0_0 : S8x4x2048x64.Slices ![4, 0, 0, 0] S1x4x2048x64
  slices_S8x4x2048x64_S1x4x2048x64_5_0_0_0 : S8x4x2048x64.Slices ![5, 0, 0, 0] S1x4x2048x64
  slices_S8x4x2048x64_S1x4x2048x64_6_0_0_0 : S8x4x2048x64.Slices ![6, 0, 0, 0] S1x4x2048x64
  slices_S8x4x2048x64_S1x4x2048x64_7_0_0_0 : S8x4x2048x64.Slices ![7, 0, 0, 0] S1x4x2048x64
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .bf16 = 32 ∨ (Rect.block (s := S512x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x64.size a ≤ S8x8192x64.size a
  hwx0_2 : ∀ i : grid0.Coords, EltTy.bits .f32 = 32 ∨ (Rect.block (s := S8x8192x64) S8x512x64.size (cc0_transform_2 i) (hinb0_2 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8x64x4096 : Shape := ⟨3, ![8, 64, 4096]⟩
abbrev S8x64x4x2048 : Shape := ⟨4, ![8, 64, 4, 2048]⟩
abbrev S8x4x2048x64 : Shape := ⟨4, ![8, 4, 2048, 64]⟩
abbrev S1x4x2048x64 : Shape := ⟨4, ![1, 4, 2048, 64]⟩
abbrev S4x2048x64 : Shape := ⟨3, ![4, 2048, 64]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x64x4096, .f32⟩
  | .hbm, ⟨2, _⟩ => ⟨S8x64x4x2048, .f32⟩
  | .hbm, ⟨3, _⟩ => ⟨S8x4x2048x64, .f32⟩
  | .hbm, ⟨4, _⟩ => ⟨S1x4x2048x64, .f32⟩
  | .hbm, ⟨5, _⟩ => ⟨S4x2048x64, .f32⟩
  | .hbm, ⟨6, _⟩ => ⟨S1x4x2048x64, .f32⟩
  | .hbm, ⟨7, _⟩ => ⟨S4x2048x64, .f32⟩
  | .hbm, ⟨8, _⟩ => ⟨S1x4x2048x64, .f32⟩
  | .hbm, ⟨9, _⟩ => ⟨S4x2048x64, .f32⟩
  | .hbm, ⟨10, _⟩ => ⟨S1x4x2048x64, .f32⟩
  | .hbm, ⟨11, _⟩ => ⟨S4x2048x64, .f32⟩
  | .hbm, ⟨12, _⟩ => ⟨S1x4x2048x64, .f32⟩
  | .hbm, ⟨13, _⟩ => ⟨S4x2048x64, .f32⟩
  | .hbm, ⟨14, _⟩ => ⟨S1x4x2048x64, .f32⟩
  | .hbm, ⟨15, _⟩ => ⟨S4x2048x64, .f32⟩
  | .hbm, ⟨16, _⟩ => ⟨S1x4x2048x64, .f32⟩
  | .hbm, ⟨17, _⟩ => ⟨S4x2048x64, .f32⟩
  | .hbm, ⟨18, _⟩ => ⟨S1x4x2048x64, .f32⟩
  | .hbm, ⟨19, _⟩ => ⟨S4x2048x64, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]

class Facts₀ : Prop where
  transposes_S8x64x4x2048_S8x4x2048x64_0_2_3_1 : S8x64x4x2048.Transposes [0, 2, 3, 1] S8x4x2048x64
  slices_S8x4x2048x64_S1x4x2048x64_0_0_0_0 : S8x4x2048x64.Slices ![0, 0, 0, 0] S1x4x2048x64
  shapeCasts_S1x4x2048x64_S4x2048x64 : S1x4x2048x64.ShapeCasts S4x2048x64
  slices_S8x4x2048x64_S1x4x2048x64_1_0_0_0 : S8x4x2048x64.Slices ![1, 0, 0, 0] S1x4x2048x64
  slices_S8x4x2048x64_S1x4x2048x64_2_0_0_0 : S8x4x2048x64.Slices ![2, 0, 0, 0] S1x4x2048x64
  slices_S8x4x2048x64_S1x4x2048x64_3_0_0_0 : S8x4x2048x64.Slices ![3, 0, 0, 0] S1x4x2048x64
  slices_S8x4x2048x64_S1x4x2048x64_4_0_0_0 : S8x4x2048x64.Slices ![4, 0, 0, 0] S1x4x2048x64
  slices_S8x4x2048x64_S1x4x2048x64_5_0_0_0 : S8x4x2048x64.Slices ![5, 0, 0, 0] S1x4x2048x64
  slices_S8x4x2048x64_S1x4x2048x64_6_0_0_0 : S8x4x2048x64.Slices ![6, 0, 0, 0] S1x4x2048x64
  slices_S8x4x2048x64_S1x4x2048x64_7_0_0_0 : S8x4x2048x64.Slices ![7, 0, 0, 0] S1x4x2048x64
  dot_S8x64x4096_S4x2048x4096_S8x64x4x2048_2_2_01_01_n_n_wf : DotDims.WF S8x64x4096 S4x2048x4096 S8x64x4x2048 [2] [2] [0, 1] [0, 1] [] []

variable [Facts₀]

def dot_S8x64x4096_S4x2048x4096_S8x64x4x2048_2_2_01_01_n_n : DotDims S8x64x4096 S4x2048x4096 S8x64x4x2048 where
  lhsContracting := [2]
  rhsContracting := [2]
  lhsNonContracting := [0, 1]
  rhsNonContracting := [0, 1]
  lhsBatch := []
  rhsBatch := []
  wf := dot_S8x64x4096_S4x2048x4096_S8x64x4x2048_2_2_01_01_n_n_wf

class Facts : Prop extends Facts₀ where

variable [Facts]
-- ==== Proof.LibRows.lean ====
/-
  Rows of a matrix and their flat numbering, read at an index.

  A reshape keeps every element's row-major position. So a length-(a*b) array viewed as [a, b] holds at (p, k) the
  array's entry p*b + k; an [a, b, c] array viewed as [a*b, c] holds at (p*b + k, d) the array's entry (p, k, d); a
  column [a, 1] viewed as [a] holds at i the column's entry (i, 0). And, at the extended reals, the sum of an [a, b]
  vector along its second axis (a lane reduction into [a], from the additive neutral word) is, at row r, the plain
  sum over k of the entries (r, k).
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A length-n array cast to [a, b] reads, at (p, k), the operand at the entry numbered p*b + k. -/
theorem shapeCast_n_ab_apply {n a b : ℕ} (x : (⟨1, ![n]⟩ : Shape).Idx → α) (h : (⟨1, ![n]⟩ : Shape).ShapeCasts ⟨2, ![a, b]⟩)
    (p : Fin a) (k : Fin b) (r : Fin n) (hr : r.val = p.val * b + k.val) :
    shapeCast ⟨2, ![a, b]⟩ x h (ix2 p k) = x (ix1 r) :=
  shapeCast_apply x h _ _ (by
    rw [Shape.rowMajor_val_two, Shape.rowMajor_val_one]
    exact hr)

/-- An [a, b, c] array cast to [n, c] reads, at (r, d) with r = p*b + k, the operand at (p, k, d). -/
theorem shapeCast_abc_nc_apply {n a b c : ℕ} (x : (⟨3, ![a, b, c]⟩ : Shape).Idx → α)
    (h : (⟨3, ![a, b, c]⟩ : Shape).ShapeCasts ⟨2, ![n, c]⟩)
    (p : Fin a) (k : Fin b) (d : Fin c) (r : Fin n) (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- A column [a, 1] cast to [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- At the extended reals the sum of an [a, b] f32 vector along axis 1, from the additive neutral word, is at row r the
    sum over k of the entries (r, k). -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ k : Fin b, v (ix2 r k) := by
  refine (Ideal.multiReduction_add_single v acc h hφ hacc (ix1 r)).trans ?_
  refine Finset.sum_congr rfl fun k _ => congrArg v ?_
  funext ax
  refine Fin.ext ?_
  match ax with
  | ⟨0, _⟩ => rfl
  | ⟨1, _⟩ => rfl

end Cert.LibRows

end
-- ==== Proof.LibGemmNT.lean ====
/-
  A matrix product against a transposed right operand, read at an entry; and an array whose middle axis is
  split in two, read at an index.

  When the dimension numbers contract the columns of the left operand [n, k] against the columns of the right
  operand [d, k] — the product A · Bᵀ, no batch axis — the contraction index is its one coordinate, and the sum
  over it of the operands' products at entry (p, c) is ∑ q, lhs (p, q) · rhs (c, q).  Read at the exact extended
  reals, a matrix-unit product into a zero accumulator and a host dot_general are both that sum, whatever
  their precision or schedule.

  A reshape keeps every element's row-major position: an [e, n, r] array with n = a · b, viewed as [e, a, b, r],
  holds at (i, p, s, j) the entry (i, p · b + s, j).
-/
import Idealize.ShloMosaic.Lib.Pipeline.Value
import Idealize.ShloMosaic.Lib.ValueIdx
import Idealize.ShloMosaic.PureOps.Ideal.Laws

noncomputable section

open scoped BigOperators

namespace Cert.LibGemmNT

open Idealize.ShloMosaic Idealize.ShloMosaic.ValueIdx

variable {n k d : ℕ}

/-- The sum over a one-axis contraction index, re-indexed by the axis's coordinate, for a product whose operand
    indices at output (p, c) and contraction coordinate q are (p, q) and (c, q). -/
theorem sum_contr_eq {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (lhs : FVec Ideal ⟨2, ![n, k]⟩ φ₁) (rhs : FVec Ideal ⟨2, ![d, k]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 c q) := by
  rw [← Equiv.sum_comp (contrEquiv1 D k hr hs).symm]
  refine Finset.sum_congr rfl fun q _ => ?_
  have hq := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hq)
  have er : D.rhsIdx (ix2 p c) ((contrEquiv1 D k hr hs).symm q) = ix2 c q := funext fun a => Fin.ext (by
    match a with
    | ⟨0, _⟩ => exact hr0 _ _
    | ⟨1, _⟩ => exact (hr1 _ _).trans hq)
  rw [el, er]

/-- A matrix-unit product A · Bᵀ into the zero accumulator, at entry (p, c). -/
theorem matmul_zero_apply {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (prec : Option ContractPrecision) (lhs : FVec Ideal ⟨2, ![n, k]⟩ φ₁) (rhs : FVec Ideal ⟨2, ![d, k]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 c q) := by
  rw [Ideal.matmul_constant_zero_apply]
  exact sum_contr_eq D hr hs hl0 hl1 hr0 hr1 lhs rhs p c

/-- A host dot_general A · Bᵀ, at entry (p, c). -/
theorem dotGeneral_apply {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (prec : Option ContractPrecision) (sched : HostSchedule)
    (lhs : FVec Ideal ⟨2, ![n, k]⟩ φ₁) (rhs : FVec Ideal ⟨2, ![d, k]⟩ φ₂) (p : Fin n) (c : Fin d) :
    FloatOps.dotGeneral D prec sched lhs rhs (ix2 p c) = ∑ q : Fin k, lhs (ix2 p q) * rhs (ix2 c q) := by
  rw [Ideal.dotGeneral_apply]
  exact sum_contr_eq D hr hs hl0 hl1 hr0 hr1 lhs rhs p c

variable {α : Type}

/-- An [e, n, r] array with n = a · b cast to [e, a, b, r] reads, at (i, p, s, j), the operand at (i, p · b + s, j). -/
theorem shapeCast_enr_eabr_apply {e m a b r : ℕ} (x : (⟨3, ![e, m, r]⟩ : Shape).Idx → α)
    (h : (⟨3, ![e, m, r]⟩ : Shape).ShapeCasts ⟨4, ![e, a, b, r]⟩) (hm : m = a * b)
    (i : Fin e) (p : Fin a) (s : Fin b) (j : Fin r) (t : Fin m) (ht : t.val = p.val * b + s.val) :
    shapeCast ⟨4, ![e, a, b, r]⟩ x h (ix4 i p s j) = x (ix3 i t j) :=
  shapeCast_apply x h _ _ (by
    rw [Shape.rowMajor_val_three, Shape.rowMajor_val_four]
    show (i.val * m + t.val) * r + j.val = ((i.val * a + p.val) * b + s.val) * r + j.val
    rw [ht, hm]
    ring)

end Cert.LibGemmNT

end
-- ==== Proof.Spec.lean ====
/-
  What both programs compute, as one function of the two argument arrays, and its flat arrangement.

  x is [4, 2048, 4096] (batch, position, feature) and W is [8, 64, 4096] (expert, output row, feature).
  Expert e's output at (b, s, r) is the inner product over the features of x (b, s, ·) with W (e, r, ·):

      expertOut x W (e, b, s, r) = ∑ k, x (b, s, k) · W (e, r, k).

  The kernel works on the flat views X = x as [8192, 4096] (row b · 2048 + s) and B = W as [512, 4096]
  (row e · 64 + r), and writes slabs X B (e, m, r) = ∑ k, X (m, k) · B (e · 64 + r, k) as an [8, 8192, 64] array;
  splitting that array's middle axis back into (b, s) gives expertOut.  Only the row-major numbering of
  the reshapes is used: no property of the extended reals' arithmetic.
-/
import proofs.«179247_j14070312862079_2_alg».proof.Proof.LibRows
import proofs.«179247_j14070312862079_2_alg».proof.Proof.LibGemmNT

noncomputable section

open scoped BigOperators

namespace Cert.ExpertGemm

open Idealize.ShloMosaic Idealize.ShloMosaic.ValueIdx

/-- Row e · 64 + r of the concatenated weights: expert e's output row r. -/
def col (e : Fin 8) (r : Fin 64) : Fin 512 := ⟨e.val * 64 + r.val, by have := e.isLt; have := r.isLt; omega⟩

/-- Row b · 2048 + s of the flattened activations. -/
def row (b : Fin 4) (s : Fin 2048) : Fin 8192 := ⟨b.val * 2048 + s.val, by have := b.isLt; have := s.isLt; omega⟩

/-- Every expert's output: at (e, b, s, r) the inner product of x (b, s, ·) with W (e, r, ·). -/
def expertOut (x : FVec Ideal ⟨3, ![4, 2048, 4096]⟩ .f32) (W : FVec Ideal ⟨3, ![8, 64, 4096]⟩ .f32) :
    (⟨4, ![8, 4, 2048, 64]⟩ : Shape).Idx → EReal :=
  fun i => ∑ k : Fin 4096, x (ix3 (i 1) (i 2) k) * W (ix3 (i 0) (i 3) k)

/-- The flat arrangement: from X [M, 4096] and B [512, 4096], at (e, m, r) the inner product of row m of X with
    row e · 64 + r of B.  (M is 8192 for the whole arrays and 512 for one block of rows.) -/
def slabs {M : ℕ} {φ₁ φ₂ : FTy} (X : FVec Ideal ⟨2, ![M, 4096]⟩ φ₁) (B : FVec Ideal ⟨2, ![512, 4096]⟩ φ₂) :
    (⟨3, ![8, M, 64]⟩ : Shape).Idx → EReal :=
  fun i => ∑ k : Fin 4096, X (ix2 (i 1) k) * B (ix2 (col (i 0) (i 2)) k)

theorem slabs_apply {M : ℕ} {φ₁ φ₂ : FTy} (X : FVec Ideal ⟨2, ![M, 4096]⟩ φ₁) (B : FVec Ideal ⟨2, ![512, 4096]⟩ φ₂)
    (e : Fin 8) (p : Fin M) (r : Fin 64) :
    slabs X B (ix3 e p r) = ∑ k : Fin 4096, X (ix2 p k) * B (ix2 (col e r) k) := rfl

/-- The flat arrangement of the flattened arguments, with its middle axis split back into (b, s), is every
    expert's output: each reshape keeps row-major positions. -/
theorem slabs_flat_eq (x : FVec Ideal ⟨3, ![4, 2048, 4096]⟩ .f32) (W : FVec Ideal ⟨3, ![8, 64, 4096]⟩ .f32)
    (hx : (⟨3, ![4, 2048, 4096]⟩ : Shape).ShapeCasts ⟨2, ![8192, 4096]⟩)
    (hW : (⟨3, ![8, 64, 4096]⟩ : Shape).ShapeCasts ⟨2, ![512, 4096]⟩)
    (h : (⟨3, ![8, 8192, 64]⟩ : Shape).ShapeCasts ⟨4, ![8, 4, 2048, 64]⟩) :
    shapeCast ⟨4, ![8, 4, 2048, 64]⟩
        (slabs (φ₁ := .f32) (φ₂ := .f32) (shapeCast ⟨2, ![8192, 4096]⟩ x hx) (shapeCast ⟨2, ![512, 4096]⟩ W hW)) h
      = expertOut x W := by
  funext i
  obtain ⟨e, b, s, r, rfl⟩ : ∃ (e : Fin 8) (b : Fin 4) (s : Fin 2048) (r : Fin 64), i = ix4 e b s r :=
    ⟨i 0, i 1, i 2, i 3, eq_ix4 i⟩
  rw [Cert.LibGemmNT.shapeCast_enr_eabr_apply _ h (by norm_num) e b s r (row b s) rfl, slabs_apply]
  refine Finset.sum_congr rfl fun k _ => ?_
  rw [Cert.LibRows.shapeCast_abc_nc_apply x hx b s k (row b s) rfl,
    Cert.LibRows.shapeCast_abc_nc_apply W hW e r k (col e r) rfl]

/-- Expert e's result: slab e of an [8, 4, 2048, 64] array, its leading unit axis dropped.  Both programs end with
    this on their [8, 4, 2048, 64] array, for e = 0 … 7; it is never opened. -/
def expertSlice (e : ℕ) (y : (⟨4, ![8, 4, 2048, 64]⟩ : Shape).Idx → EReal)
    (hs : (⟨4, ![8, 4, 2048, 64]⟩ : Shape).Slices ![e, 0, 0, 0] ⟨4, ![1, 4, 2048, 64]⟩)
    (hc : (⟨4, ![1, 4, 2048, 64]⟩ : Shape).ShapeCasts ⟨3, ![4, 2048, 64]⟩) :
    (⟨3, ![4, 2048, 64]⟩ : Shape).Idx → EReal :=
  shapeCast ⟨3, ![4, 2048, 64]⟩ (extractStridedSlice ⟨4, ![1, 4, 2048, 64]⟩ ![e, 0, 0, 0] y hs) hc

end Cert.ExpertGemm

end
-- ==== Proof.Body.lean ====
/-
  What one grid point's body leaves in its output block.

  The body loads a [512, 4096] block of rows X and the whole [512, 4096] weight matrix B (bf16; at the extended
  reals a change of float format is the identity), forms the [512, 512] product Y = X · Bᵀ in one matrix-unit
  product into a zero accumulator — Y (p, c) = ∑ k, X (p, k) · B (c, k) — and stores, for each expert e = 0 … 7,
  the 64 columns 64 · e … 64 · e + 63 of Y as slab e of the [8, 512, 64] output block.  The eight stores tile
  the block, so the block ends holding, at (e, p, r), the entry Y (p, 64 · e + r): the flat arrangement
  `slabs X B` of the specification, on this block of rows.
-/
import proofs.«179247_j14070312862079_2_alg».proof.Proof.Gen.KernelIdeal.Frame
import proofs.«179247_j14070312862079_2_alg».proof.Proof.Spec

set_option maxRecDepth 16384

noncomputable section

open scoped BigOperators

namespace Cert.KernelIdeal.Body

open Cert.KernelIdeal Cert.KernelIdeal.Gen Idealize.ShloMosaic Idealize.ShloMosaic.ValueIdx Cert.ExpertGemm

/-! ## The product's operand indices -/

local notation "D" => dot_S512x4096_S512x4096_S512x512_1_1_0_0_n_n

theorem lhs_row (i : S512x512.Idx) (q : (D).contr.Idx) : ((D).lhsIdx i q 0).val = (i 0).val := by
  unfold DotDims.lhsIdx
  rw [dif_neg (show ¬(0 : Fin S512x4096.rank) ∈ (D).lhsBatch by decide),
    dif_pos (show (0 : Fin S512x4096.rank) ∈ (D).lhsNonContracting by decide)]
  rfl

theorem lhs_inner (i : S512x512.Idx) (q : (D).contr.Idx) : ((D).lhsIdx i q 1).val = (q ⟨0, by decide⟩).val :=
  (D).lhsIdx_val_of_single rfl i q

theorem rhs_row (i : S512x512.Idx) (q : (D).contr.Idx) : ((D).rhsIdx i q 0).val = (i 1).val := by
  unfold DotDims.rhsIdx
  rw [dif_neg (show ¬(0 : Fin S512x4096.rank) ∈ (D).rhsBatch by decide),
    dif_pos (show (0 : Fin S512x4096.rank) ∈ (D).rhsNonContracting by decide)]
  rfl

theorem rhs_inner (i : S512x512.Idx) (q : (D).contr.Idx) : ((D).rhsIdx i q 1).val = (q ⟨0, by decide⟩).val :=
  (D).rhsIdx_val_of_single rfl i q

/-! ## The product at an entry -/

/-- Y (p, c) = ∑ k, X (p, k) · B (c, k): the rows' block against the transposed weights. -/
theorem product_apply (x0 : Vec Ideal S512x4096 .f32) (x1 : Vec Ideal S512x4096 .bf16) (p c : Fin 512) :
    k0_pay3 (F := Ideal) x0 x1 (ix2 p c) = ∑ k : Fin 4096, x0 (ix2 p k) * x1 (ix2 c k) := by
  unfold k0_pay3
  refine (Cert.LibGemmNT.matmul_zero_apply (D) rfl rfl lhs_row lhs_inner rhs_row rhs_inner none _ _ p c).trans ?_
  refine Finset.sum_congr rfl fun k _ => ?_
  rw [shapeCast_self, shapeCast_self]
  rfl

/-! ## One stored slab at an index -/

/-- Columns o … o + 63 of a [512, 512] value, with a leading unit axis added, read at (0, p, q): the value's
    entry (p, o + q). -/
theorem slab_apply (o : ℕ) (y : FVec Ideal S512x512 .f32) (hs : S512x512.Slices ![0, o] S512x64)
    (z : Fin 1) (p : Fin 512) (q : Fin 64) (c : Fin 512) (hc : c.val = o + q.val) :
    shapeCast S1x512x64 (extractStridedSlice S512x64 ![0, o] y hs) shapeCasts_S512x64_S1x512x64 (ix3 z p q)
      = y (ix2 p c) := by
  refine (shapeCast_apply _ _ (ix3 z p q) (ix2 p q) (by
    rw [Shape.rowMajor_val_two, Shape.rowMajor_val_three]
    have hz : z.val < 1 := z.isLt
    show p.val * 64 + q.val = (z.val * 512 + p.val) * 64 + q.val
    omega)).trans ?_
  exact extractStridedSlice_apply _ _ _ _ (ix2 p c) (fun a => match a with
    | ⟨0, _⟩ => by show p.val = 0 + p.val; omega
    | ⟨1, _⟩ => by show c.val = o + q.val; exact hc)

/-- Slab e of the product, at its local index, is the flat arrangement at the block index under it. -/
theorem piece_eq (e : ℕ) (he : e < 8) (o : ℕ) (ho : o = 64 * e) (hs : S512x512.Slices ![0, o] S512x64)
    (inb : ∀ a, (![e, 0, 0] : Fin 3 → ℕ) a + S1x512x64.size a ≤ S8x512x64.size a)
    (x0 : Vec Ideal S512x4096 .f32) (x1 : Vec Ideal S512x4096 .bf16) (x : S1x512x64.Idx) :
    shapeCast S1x512x64 (extractStridedSlice S512x64 ![0, o] (k0_pay3 (F := Ideal) x0 x1) hs) shapeCasts_S512x64_S1x512x64 x
      = slabs (M := 512) (φ₁ := .f32) (φ₂ := .bf16) x0 x1 ((Rect.unit (s := S8x512x64) ![e, 0, 0] S1x512x64.size inb).emb x) := by
  obtain ⟨z, p, q, rfl⟩ : ∃ (z : Fin 1) (p : Fin 512) (q : Fin 64), x = ix3 z p q := ⟨x 0, x 1, x 2, eq_ix3 x⟩
  have hz : z.val < 1 := z.isLt
  have hq : q.val < 64 := q.isLt
  refine (slab_apply o _ hs z p q ⟨o + q.val, by omega⟩ rfl).trans ?_
  refine (product_apply x0 x1 p _).trans ?_
  show _ = ∑ k : Fin 4096, x0 (ix2 (((Rect.unit (s := S8x512x64) ![e, 0, 0] S1x512x64.size inb).emb (ix3 z p q)) 1) k)
      * x1 (ix2 (col (((Rect.unit (s := S8x512x64) ![e, 0, 0] S1x512x64.size inb).emb (ix3 z p q)) 0)
          (((Rect.unit (s := S8x512x64) ![e, 0, 0] S1x512x64.size inb).emb (ix3 z p q)) 2)) k)
  have e1 : ((Rect.unit (s := S8x512x64) ![e, 0, 0] S1x512x64.size inb).emb (ix3 z p q)) 1 = p :=
    Fin.ext (by show 0 + 1 * p.val = p.val; omega)
  have e2 : col (((Rect.unit (s := S8x512x64) ![e, 0, 0] S1x512x64.size inb).emb (ix3 z p q)) 0)
      (((Rect.unit (s := S8x512x64) ![e, 0, 0] S1x512x64.size inb).emb (ix3 z p q)) 2) = ⟨o + q.val, by omega⟩ :=
    Fin.ext (by show (e + 1 * z.val) * 64 + (0 + 1 * q.val) = o + q.val; omega)
  rw [e1, e2]

/-! ## The block after the body -/

theorem hz2 : (![0, 0] : Fin 2 → Nat) = fun _ => 0 := funext fun a => by fin_cases a <;> rfl

/-- The output block after the body is the flat arrangement of the two loaded blocks. -/
theorem out_eq (x0 : Vec Ideal S512x4096 .f32) (x1 : Vec Ideal S512x4096 .bf16) :
    out0_2 (F := Ideal) x0 x1 = slabs (M := 512) (φ₁ := .f32) (φ₂ := .bf16) x0 x1 := by
  funext y
  unfold out0_2
  simp only [View.ld_unit_zero (S := S512x4096) hz2]
  refine View.canon_apply_of_pieces (Val := Elt Ideal) (slabs (M := 512) (φ₁ := .f32) (φ₂ := .bf16) x0 x1) _ ?_ y (cover0_2 _ _ _ _ _ _ _ _ y)
  intro pc hpc x
  rcases List.mem_cons.mp hpc with rfl | hpc
  · exact piece_eq 7 (by omega) 448 rfl Facts₀.slices_S512x512_o0_448_S512x64 Facts₀.inb_S8x512x64_S1x512x64_7_0_0 x0 x1 x
  rcases List.mem_cons.mp hpc with rfl | hpc
  · exact piece_eq 6 (by omega) 384 rfl Facts₀.slices_S512x512_o0_384_S512x64 Facts₀.inb_S8x512x64_S1x512x64_6_0_0 x0 x1 x
  rcases List.mem_cons.mp hpc with rfl | hpc
  · exact piece_eq 5 (by omega) 320 rfl Facts₀.slices_S512x512_o0_320_S512x64 Facts₀.inb_S8x512x64_S1x512x64_5_0_0 x0 x1 x
  rcases List.mem_cons.mp hpc with rfl | hpc
  · exact piece_eq 4 (by omega) 256 rfl Facts₀.slices_S512x512_o0_256_S512x64 Facts₀.inb_S8x512x64_S1x512x64_4_0_0 x0 x1 x
  rcases List.mem_cons.mp hpc with rfl | hpc
  · exact piece_eq 3 (by omega) 192 rfl Facts₀.slices_S512x512_o0_192_S512x64 Facts₀.inb_S8x512x64_S1x512x64_3_0_0 x0 x1 x
  rcases List.mem_cons.mp hpc with rfl | hpc
  · exact piece_eq 2 (by omega) 128 rfl Facts₀.slices_S512x512_o0_128_S512x64 Facts₀.inb_S8x512x64_S1x512x64_2_0_0 x0 x1 x
  rcases List.mem_cons.mp hpc with rfl | hpc
  · exact piece_eq 1 (by omega) 64 rfl Facts₀.slices_S512x512_o0_64_S512x64 Facts₀.inb_S8x512x64_S1x512x64_1_0_0 x0 x1 x
  rcases List.mem_cons.mp hpc with rfl | hpc
  · exact piece_eq 0 (by omega) 0 rfl Facts₀.slices_S512x512_o0_0_S512x64 Facts₀.inb_S8x512x64_S1x512x64_0_0_0 x0 x1 x
  nomatch hpc

end Cert.KernelIdeal.Body

end
-- ==== Proof.Blocks.lean ====
/-
  From the blocks to the whole output array.

  The grid has 16 points.  Point t stages rows 512 · t … 512 · t + 511 of the flattened activations X (all 4096
  columns), the whole weight matrix B, and writes back block (0, t, 0) of the [8, 8192, 64] output: all 8 experts,
  rows 512 · t … 512 · t + 511, all 64 columns.  What it writes back is that block of the flat arrangement
  `slabs X B` of the whole arrays — row p of the staged block is row 512 · t + p of X.  The 16 blocks tile the
  array, so after the run the array is `slabs X B`.
-/
import proofs.«179247_j14070312862079_2_alg».proof.Proof.Body

set_option maxRecDepth 16384

noncomputable section

open scoped BigOperators

namespace Cert.KernelIdeal.Blocks

open Cert.KernelIdeal Cert.KernelIdeal.Gen Idealize.ShloMosaic Idealize.ShloMosaic.ValueIdx Idealize.ShloMosaic.TcCoe
open Idealize.SL.Sem Cert.ExpertGemm

variable (m : (ℓ : Loc nD τ sig) → Buf (Elt Ideal) ℓ)

/-- The printed index maps, decided over the 16 points: the rows' window moves with the output's middle axis;
    every other block index is zero. -/
theorem idx_facts : ∀ t : Fin cfg0.N, win0_0.index t (0 : Fin 2) = win0_2.index t (1 : Fin 3)
    ∧ win0_0.index t (1 : Fin 2) = 0
    ∧ win0_1.index t (0 : Fin 2) = 0
    ∧ win0_1.index t (1 : Fin 2) = 0
    ∧ win0_2.index t (0 : Fin 3) = 0
    ∧ win0_2.index t (2 : Fin 3) = 0
    ∧ win0_2.index t (1 : Fin 3) ≤ 15 :=
  (by decide +kernel : ∀ t : Fin grid0.N, _)

/-- Every block of rows is some point's. -/
theorem idx_onto : ∀ q : Fin 16, ∃ t : Fin cfg0.N, win0_2.index t = ![0, q.val, 0] :=
  (by decide +kernel : ∀ q : Fin 16, ∃ t : Fin grid0.N, win0_2.index t = ![0, q.val, 0])

/-- What point t writes back is block t of the flat arrangement of the two staged arrays as the region finds them. -/
theorem flushed_eq (c : Dev nD) (t : Fin cfg0.N) :
    (dats m 0 c).flushed 2 t = ((cfg0.win 2).blk t).view.read (Elt Ideal)
      (slabs (M := 8192) (φ₁ := .f32) (φ₂ := .bf16) (V m c main_v0) (V m c main_v2)) := by
  show (cfg0.win 2).cut (grid0.coords t) ((dats m 0 c).after 2 t) = _
  rw [after0_2, Body.out_eq]
  obtain ⟨e0, e1, e2, e3, e4, e5, e6⟩ := idx_facts t
  have key : ∀ (X : FVec Ideal S8192x4096 .f32) (B : FVec Ideal S512x4096 .bf16)
      (y : ((cfg0.win 2).xblock (grid0.coords t)).Idx),
      (∑ k : Fin 4096, X (((cfg0.win 0).blk t).view.emb (ix2 (y 1) k))
          * B (((cfg0.win 1).blk t).view.emb (ix2 (col (y 0) (y 2)) k)) : EReal)
        = ∑ k : Fin 4096, X (ix2 ((((cfg0.win 2).blk t).view.emb y) 1) k)
          * B (ix2 (col ((((cfg0.win 2).blk t).view.emb y) 0) ((((cfg0.win 2).blk t).view.emb y) 2)) k) := by
    intro X B y
    have hy0 : (y 0).val < 8 := (y 0).isLt
    have hy1 : (y 1).val < 512 := (y 1).isLt
    have hy2 : (y 2).val < 64 := (y 2).isLt
    refine Finset.sum_congr rfl fun k _ => ?_
    have hk : k.val < 4096 := k.isLt
    have h0 : ((cfg0.win 0).blk t).view.emb (ix2 (y 1) k) = ix2 ((((cfg0.win 2).blk t).view.emb y) 1) k := by
      funext a; apply Fin.ext
      match a with
      | ⟨0, _⟩ => show win0_0.index t (0 : Fin 2) * 512 + 1 * (y 1).val = win0_2.index t (1 : Fin 3) * 512 + 1 * (y 1).val; omega
      | ⟨1, _⟩ => show win0_0.index t (1 : Fin 2) * 4096 + 1 * k.val = k.val; omega
    have h1 : ((cfg0.win 1).blk t).view.emb (ix2 (col (y 0) (y 2)) k)
        = ix2 (col ((((cfg0.win 2).blk t).view.emb y) 0) ((((cfg0.win 2).blk t).view.emb y) 2)) k := by
      funext a; apply Fin.ext
      match a with
      | ⟨0, _⟩ => show win0_1.index t (0 : Fin 2) * 512 + 1 * ((y 0).val * 64 + (y 2).val) = (win0_2.index t (0 : Fin 3) * 8 + 1 * (y 0).val) * 64 + (win0_2.index t (2 : Fin 3) * 64 + 1 * (y 2).val); omega
      | ⟨1, _⟩ => show win0_1.index t (1 : Fin 2) * 4096 + 1 * k.val = k.val; omega
    rw [h0, h1]
    rfl
  funext y
  exact key (V m c main_v0) (V m c main_v2) y

/-- An index of the array is in point t's block iff each coordinate is in the block's range on its axis. -/
theorem mem_blk (t : Fin cfg0.N) (i : S8x8192x64.Idx) :
    i ∈ ((cfg0.win 2).blk t).view.set ↔ ∀ a : Fin 3, win0_2.index t a * S8x512x64.size a ≤ (i a).val
      ∧ (i a).val < win0_2.index t a * S8x512x64.size a + S8x512x64.size a := by
  show i ∈ ((View.whole main_v3).slice (win0_2.rect t)).set ↔ _
  rw [View.set_slice_whole, Rect.mem_set_unit]
  exact Iff.rfl

/-- Row i₁ of the array lies in the block of point i₁ / 512. -/
theorem cover (i : S8x8192x64.Idx) :
    ∃ t : Fin cfg0.N, (cfg0.win 2).flush t = true ∧ i ∈ ((cfg0.win 2).blk t).view.set := by
  have hi0 : (i 0).val < 8 := (i 0).isLt
  have hi1 : (i 1).val < 8192 := (i 1).isLt
  have hi2 : (i 2).val < 64 := (i 2).isLt
  obtain ⟨t, ht⟩ := idx_onto ⟨(i 1).val / 512, by omega⟩
  have q0 : win0_2.index t (0 : Fin 3) = 0 := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- The output array after the run: the flat arrangement of the two staged arrays. -/
theorem final (c : Dev nD) :
    (dats m 0 c).arrAt 2 cfg0.N = slabs (M := 8192) (φ₁ := .f32) (φ₂ := .bf16) (V m c main_v0) (V m c main_v2) :=
  (dats m 0 c).arrAt_eq_of_cover 2 _ (fun t _ => flushed_eq m c t) cover

end Cert.KernelIdeal.Blocks

end
-- ==== Proof.Tail.lean ====
/-
  The kernel program's results, read off its run.

  Before the region the host flattens the arguments: X is x viewed as [8192, 4096] (row b · 2048 + s) and B is W viewed
  as [512, 4096] (row e · 64 + r), narrowed to bf16 — no change at the extended reals.  The region leaves the
  [8, 8192, 64] array at the flat arrangement `slabs X B`.  After the region the host splits that array's middle axis
  into (b, s) — which makes it every expert's output `expertOut x W` — and returns its eight slabs.
-/
import proofs.«179247_j14070312862079_2_alg».proof.Proof.Blocks
import Idealize.ShloMosaic.Lib.StableHlo.Run

set_option maxRecDepth 16384

noncomputable section

namespace Cert.KernelIdeal.Tail

open Cert.KernelIdeal Cert.KernelIdeal.Gen Idealize.ShloMosaic Idealize.ShloMosaic.ValueIdx Idealize.ShloMosaic.TcCoe
open Idealize.SL.Sem Cert.ExpertGemm Idealize.ShloMosaic.StableHlo

variable (m : (ℓ : Loc nD τ sig) → Buf (Elt Ideal) ℓ) (ρ : Dev nD → PrngReg)

/-! ## Before the region -/

/-- The region finds the activations flattened to [8192, 4096]. -/
theorem rows_entry (c : Dev nD) :
    (V m c main_v0 : S8192x4096.Idx → EReal)
      = shapeCast S8192x4096 (m ((c.tc : Thread nD τ).loc main_arg0)) Facts₀.shapeCasts_S4x2048x4096_S8192x4096 := by
  show StableHlo.after hostOps0 (fun b => m (c, b)) (Proc.devRef .tc main_v0) = _
  after_results
  rfl

/-- The region finds the weights flattened to [512, 4096] (and narrowed, which changes nothing here). -/
theorem weights_entry (c : Dev nD) :
    (V m c main_v2 : S512x4096.Idx → EReal)
      = shapeCast S512x4096 (m ((c.tc : Thread nD τ).loc main_arg1)) Facts₀.shapeCasts_S8x64x4096_S512x4096 := by
  show StableHlo.after hostOps0 (fun b => m (c, b)) (Proc.devRef .tc main_v2) = _
  after_results
  rfl

/-! ## The region's array, with its middle axis split -/

/-- The region's output array, viewed as [8, 4, 2048, 64], is every expert's output. -/
theorem array_eq (c : Dev nD) :
    shapeCast S8x4x2048x64 ((dats m 0 c).arrAt 2 cfg0.N) Facts₀.shapeCasts_S8x8192x64_S8x4x2048x64
      = expertOut (m ((c.tc : Thread nD τ).loc main_arg0)) (m ((c.tc : Thread nD τ).loc main_arg1)) := by
  rw [Blocks.final, rows_entry, weights_entry]
  exact slabs_flat_eq _ _ _ _ _

/-- What the lines after the region read for the region's array. -/
theorem region_array (c : Dev nD) :
    Pipeline.withArrays (cfgs 0).spec c (V0 m c) (fun w => (dats m 0 c).arrAt w (cfgs 0).N) (Proc.devRef .tc main_v3)
      = (dats m 0 c).arrAt 2 cfg0.N :=
  Pipeline.withArrays_arr spec0 launch0.win.arr_inj c _ _ 2

/-! ## After the region: the eight results -/

/-- Expert 0's result. -/
theorem result0 (c : Dev nD) :
    Pipeline.afterTail₀ cfgs (dats m) 0 (V0 m) [hostOps1] c main_v6
      = expertSlice 0 (expertOut (m ((c.tc : Thread nD τ).loc main_arg0)) (m ((c.tc : Thread nD τ).loc main_arg1)))
          Facts₀.slices_S8x4x2048x64_S1x4x2048x64_0_0_0_0 Facts₀.shapeCasts_S1x4x2048x64_S4x2048x64 := by
  rw [← array_eq m c]
  unfold Pipeline.afterTail₀
  show StableHlo.after hostOps1 _ (Proc.devRef .tc main_v6) = _
  after_results
  rw [region_array m c]
  rfl

/-- Expert 1's result. -/
theorem result1 (c : Dev nD) :
    Pipeline.afterTail₀ cfgs (dats m) 0 (V0 m) [hostOps1] c main_v8
      = expertSlice 1 (expertOut (m ((c.tc : Thread nD τ).loc main_arg0)) (m ((c.tc : Thread nD τ).loc main_arg1)))
          Facts₀.slices_S8x4x2048x64_S1x4x2048x64_1_0_0_0 Facts₀.shapeCasts_S1x4x2048x64_S4x2048x64 := by
  rw [← array_eq m c]
  unfold Pipeline.afterTail₀
  show StableHlo.after hostOps1 _ (Proc.devRef .tc main_v8) = _
  after_results
  rw [region_array m c]
  rfl

/-- Expert 2's result. -/
theorem result2 (c : Dev nD) :
    Pipeline.afterTail₀ cfgs (dats m) 0 (V0 m) [hostOps1] c main_v10
      = expertSlice 2 (expertOut (m ((c.tc : Thread nD τ).loc main_arg0)) (m ((c.tc : Thread nD τ).loc main_arg1)))
          Facts₀.slices_S8x4x2048x64_S1x4x2048x64_2_0_0_0 Facts₀.shapeCasts_S1x4x2048x64_S4x2048x64 := by
  rw [← array_eq m c]
  unfold Pipeline.afterTail₀
  show StableHlo.after hostOps1 _ (Proc.devRef .tc main_v10) = _
  after_results
  rw [region_array m c]
  rfl

/-- Expert 3's result. -/
theorem result3 (c : Dev nD) :
    Pipeline.afterTail₀ cfgs (dats m) 0 (V0 m) [hostOps1] c main_v12
      = expertSlice 3 (expertOut (m ((c.tc : Thread nD τ).loc main_arg0)) (m ((c.tc : Thread nD τ).loc main_arg1)))
          Facts₀.slices_S8x4x2048x64_S1x4x2048x64_3_0_0_0 Facts₀.shapeCasts_S1x4x2048x64_S4x2048x64 := by
  rw [← array_eq m c]
  unfold Pipeline.afterTail₀
  show StableHlo.after hostOps1 _ (Proc.devRef .tc main_v12) = _
  after_results
  rw [region_array m c]
  rfl

/-- Expert 4's result. -/
theorem result4 (c : Dev nD) :
    Pipeline.afterTail₀ cfgs (dats m) 0 (V0 m) [hostOps1] c main_v14
      = expertSlice 4 (expertOut (m ((c.tc : Thread nD τ).loc main_arg0)) (m ((c.tc : Thread nD τ).loc main_arg1)))
          Facts₀.slices_S8x4x2048x64_S1x4x2048x64_4_0_0_0 Facts₀.shapeCasts_S1x4x2048x64_S4x2048x64 := by
  rw [← array_eq m c]
  unfold Pipeline.afterTail₀
  show StableHlo.after hostOps1 _ (Proc.devRef .tc main_v14) = _
  after_results
  rw [region_array m c]
  rfl

/-- Expert 5's result. -/
theorem result5 (c : Dev nD) :
    Pipeline.afterTail₀ cfgs (dats m) 0 (V0 m) [hostOps1] c main_v16
      = expertSlice 5 (expertOut (m ((c.tc : Thread nD τ).loc main_arg0)) (m ((c.tc : Thread nD τ).loc main_arg1)))
          Facts₀.slices_S8x4x2048x64_S1x4x2048x64_5_0_0_0 Facts₀.shapeCasts_S1x4x2048x64_S4x2048x64 := by
  rw [← array_eq m c]
  unfold Pipeline.afterTail₀
  show StableHlo.after hostOps1 _ (Proc.devRef .tc main_v16) = _
  after_results
  rw [region_array m c]
  rfl

/-- Expert 6's result. -/
theorem result6 (c : Dev nD) :
    Pipeline.afterTail₀ cfgs (dats m) 0 (V0 m) [hostOps1] c main_v18
      = expertSlice 6 (expertOut (m ((c.tc : Thread nD τ).loc main_arg0)) (m ((c.tc : Thread nD τ).loc main_arg1)))
          Facts₀.slices_S8x4x2048x64_S1x4x2048x64_6_0_0_0 Facts₀.shapeCasts_S1x4x2048x64_S4x2048x64 := by
  rw [← array_eq m c]
  unfold Pipeline.afterTail₀
  show StableHlo.after hostOps1 _ (Proc.devRef .tc main_v18) = _
  after_results
  rw [region_array m c]
  rfl

/-- Expert 7's result. -/
theorem result7 (c : Dev nD) :
    Pipeline.afterTail₀ cfgs (dats m) 0 (V0 m) [hostOps1] c main_v20
      = expertSlice 7 (expertOut (m ((c.tc : Thread nD τ).loc main_arg0)) (m ((c.tc : Thread nD τ).loc main_arg1)))
          Facts₀.slices_S8x4x2048x64_S1x4x2048x64_7_0_0_0 Facts₀.shapeCasts_S1x4x2048x64_S4x2048x64 := by
  rw [← array_eq m c]
  unfold Pipeline.afterTail₀
  show StableHlo.after hostOps1 _ (Proc.devRef .tc main_v20) = _
  after_results
  rw [region_array m c]
  rfl

/-! ## The run, read -/

/-- Every weakly fair execution of the kernel program terminates with result e at slab e of every expert's output
    of the launch arguments, and the arguments unchanged. -/
theorem run : θ_run defs (onTc (τ := τ) (main (F := Ideal))) ⟨m, fun _ => 0, ρ⟩ fun r => ∀ c : Dev nD,
      r.2.mem ((c.tc : Thread nD τ).loc main_v6)
        = expertSlice 0 (expertOut (m ((c.tc : Thread nD τ).loc main_arg0)) (m ((c.tc : Thread nD τ).loc main_arg1)))
            Facts₀.slices_S8x4x2048x64_S1x4x2048x64_0_0_0_0 Facts₀.shapeCasts_S1x4x2048x64_S4x2048x64
      ∧ r.2.mem ((c.tc : Thread nD τ).loc main_v8)
        = expertSlice 1 (expertOut (m ((c.tc : Thread nD τ).loc main_arg0)) (m ((c.tc : Thread nD τ).loc main_arg1)))
            Facts₀.slices_S8x4x2048x64_S1x4x2048x64_1_0_0_0 Facts₀.shapeCasts_S1x4x2048x64_S4x2048x64
      ∧ r.2.mem ((c.tc : Thread nD τ).loc main_v10)
        = expertSlice 2 (expertOut (m ((c.tc : Thread nD τ).loc main_arg0)) (m ((c.tc : Thread nD τ).loc main_arg1)))
            Facts₀.slices_S8x4x2048x64_S1x4x2048x64_2_0_0_0 Facts₀.shapeCasts_S1x4x2048x64_S4x2048x64
      ∧ r.2.mem ((c.tc : Thread nD τ).loc main_v12)
        = expertSlice 3 (expertOut (m ((c.tc : Thread nD τ).loc main_arg0)) (m ((c.tc : Thread nD τ).loc main_arg1)))
            Facts₀.slices_S8x4x2048x64_S1x4x2048x64_3_0_0_0 Facts₀.shapeCasts_S1x4x2048x64_S4x2048x64
      ∧ r.2.mem ((c.tc : Thread nD τ).loc main_v14)
        = expertSlice 4 (expertOut (m ((c.tc : Thread nD τ).loc main_arg0)) (m ((c.tc : Thread nD τ).loc main_arg1)))
            Facts₀.slices_S8x4x2048x64_S1x4x2048x64_4_0_0_0 Facts₀.shapeCasts_S1x4x2048x64_S4x2048x64
      ∧ r.2.mem ((c.tc : Thread nD τ).loc main_v16)
        = expertSlice 5 (expertOut (m ((c.tc : Thread nD τ).loc main_arg0)) (m ((c.tc : Thread nD τ).loc main_arg1)))
            Facts₀.slices_S8x4x2048x64_S1x4x2048x64_5_0_0_0 Facts₀.shapeCasts_S1x4x2048x64_S4x2048x64
      ∧ r.2.mem ((c.tc : Thread nD τ).loc main_v18)
        = expertSlice 6 (expertOut (m ((c.tc : Thread nD τ).loc main_arg0)) (m ((c.tc : Thread nD τ).loc main_arg1)))
            Facts₀.slices_S8x4x2048x64_S1x4x2048x64_6_0_0_0 Facts₀.shapeCasts_S1x4x2048x64_S4x2048x64
      ∧ r.2.mem ((c.tc : Thread nD τ).loc main_v20)
        = expertSlice 7 (expertOut (m ((c.tc : Thread nD τ).loc main_arg0)) (m ((c.tc : Thread nD τ).loc main_arg1)))
            Facts₀.slices_S8x4x2048x64_S1x4x2048x64_7_0_0_0 Facts₀.shapeCasts_S1x4x2048x64_S4x2048x64
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v6 (Pipeline.mem_restRefs_of main_v6 (by decide) (by decide))).trans (result0 m c),
      ((h c).2 main_v8 (Pipeline.mem_restRefs_of main_v8 (by decide) (by decide))).trans (result1 m c),
      ((h c).2 main_v10 (Pipeline.mem_restRefs_of main_v10 (by decide) (by decide))).trans (result2 m c),
      ((h c).2 main_v12 (Pipeline.mem_restRefs_of main_v12 (by decide) (by decide))).trans (result3 m c),
      ((h c).2 main_v14 (Pipeline.mem_restRefs_of main_v14 (by decide) (by decide))).trans (result4 m c),
      ((h c).2 main_v16 (Pipeline.mem_restRefs_of main_v16 (by decide) (by decide))).trans (result5 m c),
      ((h c).2 main_v18 (Pipeline.mem_restRefs_of main_v18 (by decide) (by decide))).trans (result6 m c),
      ((h c).2 main_v20 (Pipeline.mem_restRefs_of main_v20 (by decide) (by decide))).trans (result7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.Reference.lean ====
/-
  The reference's [8, 4, 2048, 64] array is every expert's output.

  The reference contracts W [8, 64, 4096] with x [4, 2048, 4096] over the features, giving at (e, r, b, s) the sum
  ∑ k, W (e, r, k) · x (b, s, k), and transposes the result to (e, b, s, r).  Multiplication of extended reals is
  commutative, so this is `expertOut x W` entry by entry.
-/
import proofs.«179247_j14070312862079_2_alg».proof.Proof.Gen.ReferenceIdeal.Read
import proofs.«179247_j14070312862079_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.ExpertGemm

/-- The transposed contraction, at (e, b, s, r), is ∑ k, x (b, s, k) · W (e, r, k). -/
theorem transposed_eq (x : (⟨S4x2048x4096, .f32⟩ : BufTy).Contents (Elt Ideal))
    (W : (⟨S8x64x4096, .f32⟩ : BufTy).Contents (Elt Ideal)) :
    val_main_v1 (F := Ideal) x W = expertOut x W := by
  funext i
  rw [val_main_v1_apply, val_main_v0_apply]
  unfold expertOut
  refine Finset.sum_congr rfl fun k _ => ?_
  have el : lidx_main_v0 (idx_main_v1 i) k = ix3 (i 0) (i 3) k := funext fun a => Fin.ext (by
    match a with
    | ⟨0, _⟩ => rfl
    | ⟨1, _⟩ => rfl
    | ⟨2, _⟩ => rfl)
  have er : ridx_main_v0 (idx_main_v1 i) k = ix3 (i 1) (i 2) k := funext fun a => Fin.ext (by
    match a with
    | ⟨0, _⟩ => rfl
    | ⟨1, _⟩ => rfl
    | ⟨2, _⟩ => rfl)
  rw [el, er]
  exact mul_comm _ _

/-- The reference's result for expert e — slab e of the transposed contraction, its unit axis dropped — is slab e
    of every expert's output. -/
theorem result_eq (e : ℕ) (x : (⟨S4x2048x4096, .f32⟩ : BufTy).Contents (Elt Ideal))
    (W : (⟨S8x64x4096, .f32⟩ : BufTy).Contents (Elt Ideal))
    (hs : S8x4x2048x64.Slices ![e, 0, 0, 0] S1x4x2048x64) (hc : S1x4x2048x64.ShapeCasts S4x2048x64)
    (hs' : (⟨4, ![8, 4, 2048, 64]⟩ : Shape).Slices ![e, 0, 0, 0] ⟨4, ![1, 4, 2048, 64]⟩)
    (hc' : (⟨4, ![1, 4, 2048, 64]⟩ : Shape).ShapeCasts ⟨3, ![4, 2048, 64]⟩) :
    shapeCast S4x2048x64 (extractStridedSlice S1x4x2048x64 ![e, 0, 0, 0]
        (val_main_v1 (F := Ideal) x W) hs) hc
      = expertSlice e (expertOut x W) hs' hc' :=
  congrArg (fun y => expertSlice e y hs' hc') (transposed_eq x W)

end Cert.ReferenceIdeal.RefValue

end
-- ==== Proof.lean ====
/-
  The certificate: a fused mixture-of-experts projection against its einsum reference.

  With x [4, 2048, 4096] and W [8, 64, 4096], both programs return, for each expert e = 0 … 7, the [4, 2048, 64] array

      out_e (b, s, r) = ∑ k, x (b, s, k) · W (e, r, k).

  The kernel flattens x to [8192, 4096] and W to [512, 4096], and on a grid of 16 blocks of 512 rows multiplies the block
  of rows by the transposed weights in one matrix-unit product, storing the 64 columns of each expert as that expert's
  slab of an [8, 8192, 64] array; the host then splits the row axis back into (b, s) and returns the eight slabs
  (Proof/Body.lean, Proof/Blocks.lean, Proof/Tail.lean).  The reference contracts W with x, transposes to
  (e, b, s, r) and returns the same eight slabs (Proof/Reference.lean).  At the extended reals a change of float
  format is the identity, and the two sides differ only in the order of the two factors of each product and in the
  row-major bookkeeping of the reshapes (Proof/Spec.lean): no distributivity or cancellation is used, so the inputs'
  finiteness is never opened.  The idealized kernel's ledger of rewrites is empty, so the statement relating the
  word-level kernel to its idealization is `True`.
-/
import proofs.«179247_j14070312862079_2_alg».proof.Defs
import proofs.«179247_j14070312862079_2_alg».proof.Proof.Gen.Kernel
import proofs.«179247_j14070312862079_2_alg».proof.Proof.Gen.Kernel.Skeleton
import proofs.«179247_j14070312862079_2_alg».proof.Proof.Gen.Kernel.Launch
import proofs.«179247_j14070312862079_2_alg».proof.Proof.Gen.Kernel.Points
import proofs.«179247_j14070312862079_2_alg».proof.Proof.Gen.Kernel.Frame
import proofs.«179247_j14070312862079_2_alg».proof.Proof.Gen.KernelIdeal
import proofs.«179247_j14070312862079_2_alg».proof.Proof.Gen.KernelIdeal.Skeleton
import proofs.«179247_j14070312862079_2_alg».proof.Proof.Gen.KernelIdeal.Launch
import proofs.«179247_j14070312862079_2_alg».proof.Proof.Gen.KernelIdeal.Points
import proofs.«179247_j14070312862079_2_alg».proof.Proof.Gen.KernelIdeal.Frame
import proofs.«179247_j14070312862079_2_alg».proof.Proof.Gen.ReferenceIdeal
import proofs.«179247_j14070312862079_2_alg».proof.Proof.Gen.Pre_finite_inputs
import proofs.«179247_j14070312862079_2_alg».proof.Proof.Gen.ReferenceIdeal.Run
import proofs.«179247_j14070312862079_2_alg».proof.Proof.Gen.ReferenceIdeal.Read
import proofs.«179247_j14070312862079_2_alg».proof.Proof.Tail
import proofs.«179247_j14070312862079_2_alg».proof.Proof.Reference
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2.2.2.2.2.2.2)
    (Cert.ReferenceIdeal.Value.run (F := Ideal) m ρ)

/-- From memories agreeing on x and W both programs end with result e at slab e of every expert's output. -/
theorem algebraic : Cert.algebraic_KernelIdeal_ReferenceIdeal := by
  intro m ρ m' ρ' _ hagree
  refine ⟨_, _, _, _, _, _, _, _, Cert.KernelIdeal.Tail.run m ρ, ?_⟩
  refine (θ_run Cert.ReferenceIdeal.defs _ _).mono (fun _ h c => ⟨(h c).1.trans ?_, (h c).2.1.trans ?_,
      (h c).2.2.1.trans ?_, (h c).2.2.2.1.trans ?_, (h c).2.2.2.2.1.trans ?_, (h c).2.2.2.2.2.1.trans ?_,
      (h c).2.2.2.2.2.2.1.trans ?_, (h c).2.2.2.2.2.2.2.1.trans ?_, (h c).2.2.2.2.2.2.2.2⟩)
    (Cert.ReferenceIdeal.Value.run (F := Ideal) m' ρ')
  all_goals rw [(hagree c).1, (hagree c).2]
  · exact Cert.ReferenceIdeal.RefValue.result_eq 0 _ _ _ _ _ _
  · exact Cert.ReferenceIdeal.RefValue.result_eq 1 _ _ _ _ _ _
  · exact Cert.ReferenceIdeal.RefValue.result_eq 2 _ _ _ _ _ _
  · exact Cert.ReferenceIdeal.RefValue.result_eq 3 _ _ _ _ _ _
  · exact Cert.ReferenceIdeal.RefValue.result_eq 4 _ _ _ _ _ _
  · exact Cert.ReferenceIdeal.RefValue.result_eq 5 _ _ _ _ _ _
  · exact Cert.ReferenceIdeal.RefValue.result_eq 6 _ _ _ _ _ _
  · exact Cert.ReferenceIdeal.RefValue.result_eq 7 _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
